-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S2x2816x1024 : Shape := ⟨3, ![2, 2816, 1024]⟩
abbrev S2x1024x2816 : Shape := ⟨3, ![2, 1024, 2816]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2x2816x1024 : S_.BroadcastsInDim S2x2816x1024 (![] : Fin 0 → Fin S2x2816x1024.rank)
  reducesTo_S2x2816x1024_S_d0_1_2 : S2x2816x1024.ReducesTo [0, 1, 2] S_
  bcast_S_S2x1024x2816 : S_.BroadcastsInDim S2x1024x2816 (![] : Fin 0 → Fin S2x1024x2816.rank)
  reducesTo_S2x1024x2816_S_d0_1_2 : S2x1024x2816.ReducesTo [0, 1, 2] S_

variable [Facts]

def fn_part1 {F : FTy → Type} [FloatOps F] (main_v13 : IVec S_ 1) (main_v16 : IVec S2x2816x1024 1) : IVec S_ 1 :=
  let main_c_5 : IVec S_ 1 := constantI S_ 1 1#1
  let main_v17 : IVec S_ 1 := (fun x v => Host.reduce IntOp.andi x v reducesTo_S2x2816x1024_S_d0_1_2 h_S_) main_v16 main_c_5
  let main_v18 : IVec S_ 1 := andi main_v13 main_v17
  main_v18

def fn {F : FTy → Type} [FloatOps F] (main_arg0 : FVec F S8x4096x1024 .f32) (main_arg1 : IVec S8x4096 32) (main_arg2 : FVec F S2x2816x1024 .f32) (main_arg3 : FVec F S2x1024x2816 .f32) (main_arg4 : FVec F S2x2816x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S2x2816x1024 .f32 := Host.absf main_arg2
  let main_cst_0 : FVec F S_ .f32 := constant S_ .f32 0x7F800000#32
  let main_v5 : FVec F S2x2816x1024 .f32 := broadcastInDim S2x2816x1024 ![] bcast_S_S2x2816x1024 main_cst_0
  let main_v6 : IVec S2x2816x1024 1 := cmpf .olt main_v4 main_v5
  let main_c_1 : IVec S_ 1 := constantI S_ 1 1#1
  let main_v7 : IVec S_ 1 := (fun x v => Host.reduce IntOp.andi x v reducesTo_S2x2816x1024_S_d0_1_2 h_S_) main_v6 main_c_1
  let main_v8 : IVec S_ 1 := andi main_v3 main_v7
  let main_v9 : FVec F S2x1024x2816 .f32 := Host.absf main_arg3
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_c_3 : IVec S_ 1 := constantI S_ 1 1#1
  let main_v12 : IVec S_ 1 := (fun x v => Host.reduce IntOp.andi x v reducesTo_S2x1024x2816_S_d0_1_2 h_S_) main_v11 main_c_3
  let main_v13 : IVec S_ 1 := andi main_v8 main_v12
  let main_v14 : FVec F S2x2816x1024 .f32 := Host.absf main_arg4
  let main_cst_4 : FVec F S_ .f32 := constant S_ .f32 0x7F800000#32
  let main_v15 : FVec F S2x2816x1024 .f32 := broadcastInDim S2x2816x1024 ![] bcast_S_S2x2816x1024 main_cst_4
  let main_v16 : IVec S2x2816x1024 1 := cmpf .olt main_v14 main_v15
  fn_part1 (F := F) main_v13 main_v16
-- ==== Kernel.lean ====
abbrev S8x4096x1024 : Shape := ⟨3, ![8, 4096, 1024]⟩
abbrev S8x4096 : Shape := ⟨2, ![8, 4096]⟩
abbrev S2x2816x1024 : Shape := ⟨3, ![2, 2816, 1024]⟩
abbrev S2x1024x2816 : Shape := ⟨3, ![2, 1024, 2816]⟩
abbrev S32768x1024 : Shape := ⟨2, ![32768, 1024]⟩
abbrev S32768x1 : Shape := ⟨2, ![32768, 1]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S256x1024 : Shape := ⟨2, ![256, 1024]⟩
abbrev S256x1 : Shape := ⟨2, ![256, 1]⟩
abbrev S256x2816 : Shape := ⟨2, ![256, 2816]⟩

abbrev nBuf : Space → Nat
  | .hbm => 36
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S2x2816x1024, .f32⟩
  | .hbm, ⟨3, _⟩ => ⟨S2x1024x2816, .f32⟩
  | .hbm, ⟨4, _⟩ => ⟨S2x2816x1024, .f32⟩
  | .hbm, ⟨5, _⟩ => ⟨S32768x1024, .f32⟩
  | .hbm, ⟨6, _⟩ => ⟨S32768x1, .i32⟩
  | .hbm, ⟨7, _⟩ => ⟨S2x2816x1024, .bf16⟩
  | .hbm, ⟨8, _⟩ => ⟨S2x1024x2816, .bf16⟩
  | .hbm, ⟨9, _⟩ => ⟨S2x2816x1024, .bf16⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S_, .i32⟩
  | .hbm, ⟨14, _⟩ => ⟨S32768x1, .i32⟩
  | .hbm, ⟨15, _⟩ => ⟨S32768x1, .i1⟩
  | .hbm, ⟨16, _⟩ => ⟨S32768x1, .f32⟩
  | .hbm, ⟨17, _⟩ => ⟨S1x1024x2816, .bf16⟩
  | .hbm, ⟨18, _⟩ => ⟨S1024x2816, .bf16⟩
  | .hbm, ⟨19, _⟩ => ⟨S1x1024x2816, .bf16⟩
  | .hbm, ⟨20, _⟩ => ⟨S1024x2816, .bf16⟩
  | .hbm, ⟨21, _⟩ => ⟨S1x2816x1024, .bf16⟩
  | .hbm, ⟨22, _⟩ => ⟨S2816x1024, .bf16⟩
  | .hbm, ⟨23, _⟩ => ⟨S32768x1024, .f32⟩
  | .hbm, ⟨24, _⟩ => ⟨S_, .i32⟩
  | .hbm, ⟨25, _⟩ => ⟨S32768x1, .i32⟩
  | .hbm, ⟨26, _⟩ => ⟨S32768x1, .i1⟩
  | .hbm, ⟨27, _⟩ => ⟨S32768x1, .f32⟩
  | .hbm, ⟨28, _⟩ => ⟨S1x1024x2816, .bf16⟩
  | .hbm, ⟨29, _⟩ => ⟨S1024x2816, .bf16⟩
  | .hbm, ⟨30, _⟩ => ⟨S1x1024x2816, .bf16⟩
  | .hbm, ⟨31, _⟩ => ⟨S1024x2816, .bf16⟩
  | .hbm, ⟨32, _⟩ => ⟨S1x2816x1024, .bf16⟩
  | .hbm, ⟨33, _⟩ => ⟨S2816x1024, .bf16⟩
  | .hbm, ⟨34, _⟩ => ⟨S32768x1024, .f32⟩
  | .hbm, ⟨35, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1, .f32⟩
  | .local _ .vmem, ⟨14, _⟩ => ⟨S256x1, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S256x1024, .f32⟩
  | .local _ .vmem, ⟨19, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2816 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2816 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S8x4096x1024_S32768x1024 : S8x4096x1024.ShapeCasts S32768x1024
  shapeCasts_S8x4096_S32768x1 : S8x4096.ShapeCasts S32768x1
  bitsLt_bf16_f32 : FTy.bits .bf16 < FTy.bits .f32
  transposes_S2x2816x1024_S2x1024x2816_0_2_1 : S2x2816x1024.Transposes [0, 2, 1] S2x1024x2816
  transposes_S2x1024x2816_S2x2816x1024_0_2_1 : S2x1024x2816.Transposes [0, 2, 1] S2x2816x1024
  bcast_S_S32768x1 : S_.BroadcastsInDim S32768x1 (![] : Fin 0 → Fin S32768x1.rank)
  slices_S2x1024x2816_S1x1024x2816_0_0_0 : S2x1024x2816.Slices ![0, 0, 0] S1x1024x2816
  shapeCasts_S1x1024x2816_S1024x2816 : S1x1024x2816.ShapeCasts S1024x2816
  slices_S2x2816x1024_S1x2816x1024_0_0_0 : S2x2816x1024.Slices ![0, 0, 0] S1x2816x1024
  shapeCasts_S1x2816x1024_S2816x1024 : S1x2816x1024.ShapeCasts S2816x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2816_S1024x2816_0_0 : ∀ a, (![0, 0] : Fin 2 → Nat) a + S1024x2816.size a ≤ S1024x2816.size a
  h_S1024x2816 : 0 < S1024x2816.numel
  shapeCasts_S1024x2816_S1024x2816 : S1024x2816.ShapeCasts S1024x2816
  inb_S2816x1024_S2816x1024_0_0 : ∀ a, (![0, 0] : Fin 2 → Nat) a + S2816x1024.size a ≤ S2816x1024.size a
  h_S2816x1024 : 0 < S2816x1024.numel
  shapeCasts_S2816x1024_S2816x1024 : S2816x1024.ShapeCasts S2816x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  slices_S2x1024x2816_S1x1024x2816_1_0_0 : S2x1024x2816.Slices ![1, 0, 0] S1x1024x2816
  slices_S2x2816x1024_S1x2816x1024_1_0_0 : S2x2816x1024.Slices ![1, 0, 0] S1x2816x1024
  shapeCasts_S32768x1024_S8x4096x1024 : S32768x1024.ShapeCasts S8x4096x1024
  dot_S256x1024_S1024x2816_S256x2816_1_0_0_1_n_n_wf : DotDims.WF S256x1024 S1024x2816 S256x2816 [1] [0] [0] [1] [] []
  dot_S256x2816_S2816x1024_S256x1024_1_0_0_1_n_n_wf : DotDims.WF S256x2816 S2816x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S32768x1.size a
  hwx0_1 : ∀ i : grid0.Coords, EltTy.bits .f32 = 32 ∨ (Rect.block (s := S32768x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2816.size a ≤ S1024x2816.size a
  hwx0_2 : ∀ i : grid0.Coords, EltTy.bits .bf16 = 32 ∨ (Rect.block (s := S1024x2816) S1024x2816.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2816.size a ≤ S1024x2816.size a
  hwx0_3 : ∀ i : grid0.Coords, EltTy.bits .bf16 = 32 ∨ (Rect.block (s := S1024x2816) S1024x2816.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2816x1024.size a ≤ S2816x1024.size a
  hwx0_4 : ∀ i : grid0.Coords, EltTy.bits .bf16 = 32 ∨ (Rect.block (s := S2816x1024) S2816x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S32768x1024.size a
  hwx0_5 : ∀ i : grid0.Coords, EltTy.bits .f32 = 32 ∨ (Rect.block (s := S32768x1024) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S32768x1024.size a
  hwx1_0 : ∀ i : grid1.Coords, EltTy.bits .f32 = 32 ∨ (Rect.block (s := S32768x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S32768x1024.size a
  hwx1_1 : ∀ i : grid1.Coords, EltTy.bits .f32 = 32 ∨ (Rect.block (s := S32768x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S32768x1.size a
  hwx1_2 : ∀ i : grid1.Coords, EltTy.bits .f32 = 32 ∨ (Rect.block (s := S32768x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x2816.size a ≤ S1024x2816.size a
  hwx1_3 : ∀ i : grid1.Coords, EltTy.bits .bf16 = 32 ∨ (Rect.block (s := S1024x2816) S1024x2816.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x2816.size a ≤ S1024x2816.size a
  hwx1_4 : ∀ i : grid1.Coords, EltTy.bits .bf16 = 32 ∨ (Rect.block (s := S1024x2816) S1024x2816.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2816x1024.size a ≤ S2816x1024.size a
  hwx1_5 : ∀ i : grid1.Coords, EltTy.bits .bf16 = 32 ∨ (Rect.block (s := S2816x1024) S2816x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S32768x1024.size a
  hwx1_6 : ∀ i : grid1.Coords, EltTy.bits .f32 = 32 ∨ (Rect.block (s := S32768x1024) S256x1024.size (cc1_transform_6 i) (hinb1_6 i)).WholeWords (EltTy.packing .f32)

variable [Facts₀]

def dot_S256x1024_S1024x2816_S256x2816_1_0_0_1_n_n : DotDims S256x1024 S1024x2816 S256x2816 where
  lhsContracting := [1]
  rhsContracting := [0]
  lhsNonContracting := [0]
  rhsNonContracting := [1]
  lhsBatch := []
  rhsBatch := []
  wf := dot_S256x1024_S1024x2816_S256x2816_1_0_0_1_n_n_wf
def dot_S256x2816_S2816x1024_S256x1024_1_0_0_1_n_n : DotDims S256x2816 S2816x1024 S256x1024 where
  lhsContracting := [1]
  rhsContracting := [0]
  lhsNonContracting := [0]
  rhsNonContracting := [1]
  lhsBatch := []
  rhsBatch := []
  wf := dot_S256x2816_S2816x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x2816.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x2816.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2816x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1024x2816.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1024x2816.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2816x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where
  halias1_6 : Pipeline.Aliased win1 0 6

variable [Facts]
-- ==== ReferenceIdeal.lean ====
abbrev S8x4096x1024 : Shape := ⟨3, ![8, 4096, 1024]⟩
abbrev S8x4096 : Shape := ⟨2, ![8, 4096]⟩
abbrev S2x2816x1024 : Shape := ⟨3, ![2, 2816, 1024]⟩
abbrev S2x1024x2816 : Shape := ⟨3, ![2, 1024, 2816]⟩
abbrev S_ : Shape := ⟨0, ![]⟩
abbrev S8x4096x1 : Shape := ⟨3, ![8, 4096, 1]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S1x1024x2816 : Shape := ⟨3, ![1, 1024, 2816]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S2x2816x1024, .f32⟩
  | .hbm, ⟨3, _⟩ => ⟨S2x1024x2816, .f32⟩
  | .hbm, ⟨4, _⟩ => ⟨S2x2816x1024, .f32⟩
  | .hbm, ⟨5, _⟩ => ⟨S_, .f32⟩
  | .hbm, ⟨6, _⟩ => ⟨S8x4096x1024, .f32⟩
  | .hbm, ⟨7, _⟩ => ⟨S_, .i32⟩
  | .hbm, ⟨8, _⟩ => ⟨S8x4096, .i32⟩
  | .hbm, ⟨9, _⟩ => ⟨S8x4096, .i1⟩
  | .hbm, ⟨10, _⟩ => ⟨S8x4096x1, .i1⟩
  | .hbm, ⟨11, _⟩ => ⟨S1x2816x1024, .f32⟩
  | .hbm, ⟨12, _⟩ => ⟨S2816x1024, .f32⟩
  | .hbm, ⟨13, _⟩ => ⟨S8x4096x2816, .f32⟩
  | .hbm, ⟨14, _⟩ => ⟨S1x2816x1024, .f32⟩
  | .hbm, ⟨15, _⟩ => ⟨S2816x1024, .f32⟩
  | .hbm, ⟨16, _⟩ => ⟨S8x4096x2816, .f32⟩
  | .hbm, ⟨17, _⟩ => ⟨S8x4096x2816, .f32⟩
  | .hbm, ⟨18, _⟩ => ⟨S8x4096x2816, .f32⟩
  | .hbm, ⟨19, _⟩ => ⟨S_, .f32⟩
  | .hbm, ⟨20, _⟩ => ⟨S8x4096x2816, .f32⟩
  | .hbm, ⟨21, _⟩ => ⟨S8x4096x2816, .f32⟩
  | .hbm, ⟨22, _⟩ => ⟨S_, .f32⟩
  | .hbm, ⟨23, _⟩ => ⟨S8x4096x2816, .f32⟩
  | .hbm, ⟨24, _⟩ => ⟨S8x4096x2816, .f32⟩
  | .hbm, ⟨25, _⟩ => ⟨S8x4096x2816, .f32⟩
  | .hbm, ⟨26, _⟩ => ⟨S8x4096x2816, .f32⟩
  | .hbm, ⟨27, _⟩ => ⟨S1x1024x2816, .f32⟩
  | .hbm, ⟨28, _⟩ => ⟨S1024x2816, .f32⟩
  | .hbm, ⟨29, _⟩ => ⟨S8x4096x1024, .f32⟩
  | .hbm, ⟨30, _⟩ => ⟨S_, .f32⟩
  | .hbm, ⟨31, _⟩ => ⟨S_, .f32⟩
  | .hbm, ⟨32, _⟩ => ⟨S8x4096x1024, .i1⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .i32⟩
  | .hbm, ⟨37, _⟩ => ⟨S8x4096, .i32⟩
  | .hbm, ⟨38, _⟩ => ⟨S8x4096, .i1⟩
  | .hbm, ⟨39, _⟩ => ⟨S8x4096x1, .i1⟩
  | .hbm, ⟨40, _⟩ => ⟨S1x2816x1024, .f32⟩
  | .hbm, ⟨41, _⟩ => ⟨S2816x1024, .f32⟩
  | .hbm, ⟨42, _⟩ => ⟨S8x4096x2816, .f32⟩
  | .hbm, ⟨43, _⟩ => ⟨S1x2816x1024, .f32⟩
  | .hbm, ⟨44, _⟩ => ⟨S2816x1024, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S1x1024x2816, .f32⟩
  | .hbm, ⟨57, _⟩ => ⟨S1024x2816, .f32⟩
  | .hbm, ⟨58, _⟩ => ⟨S8x4096x1024, .f32⟩
  | .hbm, ⟨59, _⟩ => ⟨S_, .f32⟩
  | .hbm, ⟨60, _⟩ => ⟨S_, .f32⟩
  | .hbm, ⟨61, _⟩ => ⟨S8x4096x1024, .i1⟩
  | .hbm, ⟨62, _⟩ => ⟨S8x4096x1024, .f32⟩
  | .hbm, ⟨63, _⟩ => ⟨S8x4096x1024, .f32⟩
  | .hbm, ⟨64, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v31 : Ref sig .tc := ⟨.hbm, 63, rfl⟩
abbrev main_v32 : Ref sig .tc := ⟨.hbm, 64, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  slices_S2x2816x1024_S1x2816x1024_0_0_0 : S2x2816x1024.Slices ![0, 0, 0] S1x2816x1024
  shapeCasts_S1x2816x1024_S2816x1024 : S1x2816x1024.ShapeCasts S2816x1024
  bcast_S_S8x4096x2816 : S_.BroadcastsInDim S8x4096x2816 (![] : Fin 0 → Fin S8x4096x2816.rank)
  slices_S2x1024x2816_S1x1024x2816_0_0_0 : S2x1024x2816.Slices ![0, 0, 0] S1x1024x2816
  shapeCasts_S1x1024x2816_S1024x2816 : S1x1024x2816.ShapeCasts S1024x2816
  bcast_S8x4096x1_S8x4096x1024_0_1_2 : S8x4096x1.BroadcastsInDim S8x4096x1024 (![0, 1, 2] : Fin 3 → Fin S8x4096x1024.rank)
  slices_S2x2816x1024_S1x2816x1024_1_0_0 : S2x2816x1024.Slices ![1, 0, 0] S1x2816x1024
  slices_S2x1024x2816_S1x1024x2816_1_0_0 : S2x1024x2816.Slices ![1, 0, 0] S1x1024x2816
  dot_S8x4096x1024_S2816x1024_S8x4096x2816_2_1_01_0_n_n_wf : DotDims.WF S8x4096x1024 S2816x1024 S8x4096x2816 [2] [1] [0, 1] [0] [] []
  dot_S8x4096x2816_S1024x2816_S8x4096x1024_2_1_01_0_n_n_wf : DotDims.WF S8x4096x2816 S1024x2816 S8x4096x1024 [2] [1] [0, 1] [0] [] []

variable [Facts₀]

def dot_S8x4096x1024_S2816x1024_S8x4096x2816_2_1_01_0_n_n : DotDims S8x4096x1024 S2816x1024 S8x4096x2816 where
  lhsContracting := [2]
  rhsContracting := [1]
  lhsNonContracting := [0, 1]
  rhsNonContracting := [0]
  lhsBatch := []
  rhsBatch := []
  wf := dot_S8x4096x1024_S2816x1024_S8x4096x2816_2_1_01_0_n_n_wf
def dot_S8x4096x2816_S1024x2816_S8x4096x1024_2_1_01_0_n_n : DotDims S8x4096x2816 S1024x2816 S8x4096x1024 where
  lhsContracting := [2]
  rhsContracting := [1]
  lhsNonContracting := [0, 1]
  rhsNonContracting := [0]
  lhsBatch := []
  rhsBatch := []
  wf := dot_S8x4096x2816_S1024x2816_S8x4096x1024_2_1_01_0_n_n_wf

class Facts : Prop extends Facts₀ where

variable [Facts]
-- ==== Proof.KernelRun.lean ====
/-
  The kernel program's run, with its result named.

  The program is five stretches in a row: host operations, the first expert's call over 128 tiles of 256 tokens,
  host operations, the second expert's call over the same tiles, and a final reshape. Every execution ends, without
  a fault, with each buffer that outlives the calls at the contents obtained by folding those five stretches over
  the launch memory — the host stretches by their operations, each call by what its tiles write back. In particular
  the result buffer ends at that fold's value, and the five argument arrays end as they were launched.
-/
import proofs.«132314_j35656818491417_1_alg».proof.Proof.Gen.KernelIdeal.Frame

set_option maxRecDepth 16384

noncomputable section

namespace Routed.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the value of
    the fold `W5` at it, and each argument array what it held at launch. -/
theorem run_named : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Routed.KernelRun

end
-- ==== Proof.LibRoutedExperts.lean ====
/-
  Tokens routed to gated feed-forward experts, on the extended reals; imports no program, every extent generic.

  What is here: the gated unit `gated z u = z · logistic z · u` and that its quotient spelling
  z · (1 / (1 + e^(-z))) · u is the same term; one tile of tokens through one expert (`tile`) and one token through
  expert e of a stacked weight array (`expert`), with `tile_eq_expert`: a tile row that is a token, over matrices that
  are the expert's projections transposed, gives the expert's output; the two-expert routed result (`routed`); and
  `mul_bit01`: keeping a value by multiplying with the 0/1 value of a one-bit word is selecting on that bit, for
  every extended real. Also the f32 word of 1.0.

  A token routed to one of two gated feed-forward experts: the specification.

  A token row `x` (length K) goes through expert `e` as
      out(q) = ∑ h, gated (∑ k, x k · A(k, h)) (∑ k, x k · B(k, h)) · C(h, q),      gated z u = z · logistic z · u,
  where A, B are the expert's two input projections and C its output projection, and `logistic z = 1 / (1 + e^(-z))`.
  The routed result keeps, for each token, the output of the expert whose number equals the token's tag, and
  zero when no expert's number does. Two ways of keeping it meet here: multiplying by the 0/1 value of the
  one-bit comparison, and selecting between the output and zero on that bit. On the extended reals they agree
  for every output, the infinities included, because x · 0 = 0 and x · 1 = x hold without exception there.
-/
import Idealize.ShloMosaic.PureOps.Ideal
import Idealize.ShloMosaic.PureOps.Ideal.Laws
import Idealize.ShloMosaic.Lib.ValueIdx

noncomputable section

namespace Routed

open Idealize.ShloMosaic Idealize.ShloMosaic.ValueIdx

/-- The f32 word of `1.0` denotes the extended real `1`. -/
theorem ofBits_one : Ideal.ofBits .f32 0x3F800000#32 = 1 := by
  simp [Ideal.ofBits, Ideal.ieee, -EReal.coe_mul]; norm_num

/-- The gated unit: the first projection through `z ↦ z · logistic z`, times the second projection. -/
def gated (z u : EReal) : EReal := z * Ideal.logistic z * u

/-- The gating factor spelt with a quotient, `z · (1 / (1 + e^(-z)))`, is the one spelt with `logistic`: that is how
    `logistic` is defined on the extended reals, at the infinities too. -/
theorem gated_quotient (z u : EReal) : z * Ideal.div 1 (1 + Ideal.exp (-z)) * u = gated z u := rfl

/-- One tile of tokens through one expert, at token `p` and output feature `q`: the tile `xt` is [a, K], the two
    input projections `wa`, `wb` are [K, H] and the output projection `wc` is [H, N]. -/
def tile {a K H N : ℕ} (xt : (⟨2, ![a, K]⟩ : Shape).Idx → EReal) (wa wb : (⟨2, ![K, H]⟩ : Shape).Idx → EReal)
    (wc : (⟨2, ![H, N]⟩ : Shape).Idx → EReal) (p : Fin a) (q : Fin N) : EReal :=
  ∑ h : Fin H, gated (∑ k : Fin K, xt (ix2 p k) * wa (ix2 k h)) (∑ k : Fin K, xt (ix2 p k) * wb (ix2 k h)) * wc (ix2 h q)

/-- Expert `e`'s output for the token at (b, s), feature `d`: the tokens `x` are [B, S, K], the experts' input
    projections `w1`, `w3` are [E, H, K] (output feature first) and their output projections `w2` are [E, N, H]. -/
def expert {B S K H N E : ℕ} (x : (⟨3, ![B, S, K]⟩ : Shape).Idx → EReal) (w1 w3 : (⟨3, ![E, H, K]⟩ : Shape).Idx → EReal)
    (w2 : (⟨3, ![E, N, H]⟩ : Shape).Idx → EReal) (e : Fin E) (b : Fin B) (s : Fin S) (d : Fin N) : EReal :=
  ∑ h : Fin H, gated (∑ k : Fin K, x (ix3 b s k) * w1 (ix3 e h k)) (∑ k : Fin K, x (ix3 b s k) * w3 (ix3 e h k)) * w2 (ix3 e d h)

/-- A tile row is a token: when row `r` of the tile is token (b, s) and the tile's matrices are expert `e`'s
    projections transposed, the tile's output at (r, d) is the expert's output for that token. -/
theorem tile_eq_expert {a K H N B S E : ℕ} (X : (⟨2, ![a, K]⟩ : Shape).Idx → EReal) (Wa Wb : (⟨2, ![K, H]⟩ : Shape).Idx → EReal)
    (Wc : (⟨2, ![H, N]⟩ : Shape).Idx → EReal) (x : (⟨3, ![B, S, K]⟩ : Shape).Idx → EReal)
    (w1 w3 : (⟨3, ![E, H, K]⟩ : Shape).Idx → EReal) (w2 : (⟨3, ![E, N, H]⟩ : Shape).Idx → EReal)
    (e : Fin E) (r : Fin a) (b : Fin B) (s : Fin S) (d : Fin N)
    (hX : ∀ k : Fin K, X (ix2 r k) = x (ix3 b s k)) (hA : ∀ (k : Fin K) (h : Fin H), Wa (ix2 k h) = w1 (ix3 e h k))
    (hB : ∀ (k : Fin K) (h : Fin H), Wb (ix2 k h) = w3 (ix3 e h k)) (hC : ∀ h : Fin H, Wc (ix2 h d) = w2 (ix3 e d h)) :
    tile X Wa Wb Wc r d = expert x w1 w3 w2 e b s d := by
  unfold tile expert
  refine Finset.sum_congr rfl fun h _ => ?_
  rw [hC h]
  refine congrArg (· * w2 (ix3 e d h)) ?_
  have e1 : (∑ k : Fin K, X (ix2 r k) * Wa (ix2 k h)) = ∑ k : Fin K, x (ix3 b s k) * w1 (ix3 e h k) :=
    Finset.sum_congr rfl fun k _ => by rw [hX k, hA k h]
  have e2 : (∑ k : Fin K, X (ix2 r k) * Wb (ix2 k h)) = ∑ k : Fin K, x (ix3 b s k) * w3 (ix3 e h k) :=
    Finset.sum_congr rfl fun k _ => by rw [hX k, hB k h]
  rw [e1, e2]

/-- The routed result at (b, s, d): expert 0's output where the token's tag is 0, plus expert 1's where it is 1
    (each kept by selecting on the one-bit comparison, zero otherwise). `w1`, `w3` are [2, H, K], `w2` is [2, N, H]. -/
def routed {B S K H N : ℕ} (x : (⟨3, ![B, S, K]⟩ : Shape).Idx → EReal) (ids : (⟨2, ![B, S]⟩ : Shape).Idx → BitVec 32)
    (w1 w3 : (⟨3, ![2, H, K]⟩ : Shape).Idx → EReal) (w2 : (⟨3, ![2, N, H]⟩ : Shape).Idx → EReal)
    (i : (⟨3, ![B, S, N]⟩ : Shape).Idx) : EReal :=
  Scalar.select (IntOp.cmpi .eq (ids (ix2 (i 0) (i 1))) 0#32) (expert x w1 w3 w2 (0 : Fin 2) (i 0) (i 1) (i 2)) 0
    + Scalar.select (IntOp.cmpi .eq (ids (ix2 (i 0) (i 1))) 1#32) (expert x w1 w3 w2 (1 : Fin 2) (i 0) (i 1) (i 2)) 0

/-- The 0/1 value of a one-bit word. -/
def bit01 (c : BitVec 1) : EReal := ((c.toNat : ℝ) : EReal)

/-- Keeping a value by multiplying it with the bit's 0/1 value is keeping it by selecting on the bit, for every
    extended real `E`: `E · 1 = E` and `E · 0 = 0`. -/
theorem mul_bit01 (E : EReal) (c : BitVec 1) : E * bit01 c = Scalar.select c E 0 := by
  unfold bit01
  by_cases h : c = 1#1
  · subst h
    rw [select_one]
    simp
  · have h0 := eq_zero_of_ne_one h
    subst h0
    rw [select_zero]
    simp

end Routed

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«132314_j35656818491417_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.TileBody.lean ====
/-
  The arithmetic of one tile, read at an entry.

  Both kernel bodies load a [256, 1024] tile of tokens, the expert's two [1024, 2816] input projections, its
  [2816, 1024] output projection and a [256, 1] column of 0/1 weights, and compute: the two input products (each a
  plain matrix product accumulated into zero), the gating factor `z · logistic z` times the second product, the output
  product, and that times the weight column repeated along the row. Changes of float format are the identity on
  the extended reals. So the stored block at (p, q) is `tile … p q · weight p`; the second body adds that to the
  block it loaded from the running result.
-/
import proofs.«132314_j35656818491417_1_alg».proof.Proof.Gen.KernelIdeal.Skeleton
import proofs.«132314_j35656818491417_1_alg».proof.Proof.LibRoutedExperts
import proofs.«132314_j35656818491417_1_alg».proof.Proof.LibDotRecord
import proofs.«132314_j35656818491417_1_alg».proof.Proof.LibRowOps

noncomputable section

namespace Routed.TileBody

open Idealize.ShloMosaic Idealize.ShloMosaic.ValueIdx Cert.KernelIdeal Cert.KernelIdeal.Gen

/-- The first input product of the tile at (p, h): a sum over the 1024 input features. -/
theorem proj_apply (xt : FVec Ideal S256x1024 .bf16) (w : FVec Ideal S1024x2816 .bf16) (p : Fin 256) (h : Fin 2816) :
    matmul dot_S256x1024_S1024x2816_S256x2816_1_0_0_1_n_n none xt w (constant S256x2816 .f32 0x00000000#32) (ix2 p h)
      = ∑ k : Fin 1024, xt (ix2 p k) * w (ix2 k h) :=
  DotRecord.matmul_zero_apply dot_S256x1024_S1024x2816_S256x2816_1_0_0_1_n_n rfl rfl rfl rfl rfl rfl xt w none p h

/-- The output product of the tile at (p, q): a sum over the 2816 hidden features. -/
theorem out_apply (g : FVec Ideal S256x2816 .bf16) (w : FVec Ideal S2816x1024 .bf16) (p : Fin 256) (q : Fin 1024) :
    matmul dot_S256x2816_S2816x1024_S256x1024_1_0_0_1_n_n none g w (constant S256x1024 .f32 0x00000000#32) (ix2 p q)
      = ∑ h : Fin 2816, g (ix2 p h) * w (ix2 h q) :=
  DotRecord.matmul_zero_apply dot_S256x2816_S2816x1024_S256x1024_1_0_0_1_n_n rfl rfl rfl rfl rfl rfl g w none p q

/-- The logistic of a vector, read at an index. -/
theorem logistic_apply {s : Shape} {φ : FTy} (a : FVec Ideal s φ) (i : s.Idx) : logistic a i = Ideal.logistic (a i) := rfl

/-- The first body's stored block at (p, q). -/
theorem first_apply (x0 : Vec Ideal S256x1024 .f32) (wa wb : Vec Ideal S1024x2816 .bf16) (wc : Vec Ideal S2816x1024 .bf16)
    (mk : Vec Ideal S256x1 .f32) (p : Fin 256) (q : Fin 1024) :
    k0_pay1 (F := Ideal) x0 wa wb wc mk (ix2 p q) = tile x0 wa wb wc p q * mk (ix2 p (0 : Fin 1)) := by
  unfold k0_pay1
  simp only [shapeCast_self]
  rw [mulf_apply, Gcn.Lib.broadcastTo_a1_ab_apply, out_apply]
  unfold tile gated
  refine congrArg (· * mk (ix2 p (0 : Fin 1))) (Finset.sum_congr rfl fun h _ => ?_)
  rw [truncf_apply, mulf_apply, mulf_apply, logistic_apply, proj_apply, proj_apply]
  rfl

/-- The second body's stored block at (p, q): the loaded block of the running result plus the tile's. -/
theorem second_apply (x0 : Vec Ideal S256x1024 .f32) (wa wb : Vec Ideal S1024x2816 .bf16) (wc : Vec Ideal S2816x1024 .bf16)
    (acc : Vec Ideal S256x1024 .f32) (mk : Vec Ideal S256x1 .f32) (p : Fin 256) (q : Fin 1024) :
    k1_pay1 (F := Ideal) x0 wa wb wc acc mk (ix2 p q) = acc (ix2 p q) + tile x0 wa wb wc p q * mk (ix2 p (0 : Fin 1)) := by
  unfold k1_pay1
  simp only [shapeCast_self]
  rw [addf_apply, mulf_apply, Gcn.Lib.broadcastTo_a1_ab_apply, out_apply]
  unfold tile gated
  refine congrArg (fun s => acc (ix2 p q) + s * mk (ix2 p (0 : Fin 1))) (Finset.sum_congr rfl fun h _ => ?_)
  rw [truncf_apply, mulf_apply, mulf_apply, logistic_apply, proj_apply, proj_apply]
  rfl

end Routed.TileBody

end
-- ==== Proof.CallArrays.lean ====
/-
  What each call leaves in its output array, as one function of the arrays it finds.

  Each call runs over 128 tiles; tile `t` reads rows 256·t … 256·t + 255 of the token array, of the 0/1 weight
  column (and, in the second call, of the running result) and the three projection matrices whole, and writes back
  rows 256·t … 256·t + 255 of its output. Because the tile arithmetic at a row reads only that row of the tokens,
  the block written back is the restriction to those rows of ONE function of the whole arrays; the 128 blocks tile
  the 32768 rows (row r lies in tile r / 256), so after the call the output array is that function.
-/
import proofs.«132314_j35656818491417_1_alg».proof.Proof.Gen.KernelIdeal.Frame
import proofs.«132314_j35656818491417_1_alg».proof.Proof.TileBody

set_option maxRecDepth 16384

noncomputable section

namespace Routed.CallArrays

open Idealize.ShloMosaic Idealize.ShloMosaic.TcCoe Idealize.ShloMosaic.ValueIdx Idealize.SL.Sem
open Idealize.ShloMosaic.Pipeline (Dat)
open Cert.KernelIdeal Cert.KernelIdeal.Gen Routed

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The first call's output as a function of the token array `X`, the weight column `Mk` and the expert's matrices. -/
def firstArr (X : S32768x1024.Idx → Elt Ideal .f32) (Mk : S32768x1.Idx → Elt Ideal .f32)
    (Wa Wb : S1024x2816.Idx → Elt Ideal .bf16) (Wc : S2816x1024.Idx → Elt Ideal .bf16) : S32768x1024.Idx → Elt Ideal .f32 :=
  fun i => tile X Wa Wb Wc (i 0) (i 1) * Mk (ix2 (i 0) (0 : Fin 1))

/-- A tile's stored block is the restriction of `firstArr`: if the loaded token row and weight entry at tile row
    `p` are the arrays' at array row `r`, and the matrices are loaded whole, the block at (p, q) is `firstArr` at (r, q). -/
theorem first_block (X : S32768x1024.Idx → Elt Ideal .f32) (Mk : S32768x1.Idx → Elt Ideal .f32)
    (Wa Wb : S1024x2816.Idx → Elt Ideal .bf16) (Wc : S2816x1024.Idx → Elt Ideal .bf16)
    (x0 : Vec Ideal S256x1024 .f32) (x1 : Vec Ideal S256x1 .f32) (x2 x3 : Vec Ideal S1024x2816 .bf16)
    (x4 : Vec Ideal S2816x1024 .bf16) (p : Fin 256) (q : Fin 1024) (r : Fin 32768)
    (h0 : ∀ k : Fin 1024, x0 (ix2 p k) = X (ix2 r k))
    (h1 : x1 (ix2 p (0 : Fin 1)) = Mk (ix2 r (0 : Fin 1)))
    (h2 : x2 = Wa) (h3 : x3 = Wb) (h4 : x4 = Wc) :
    k0_pay1 (F := Ideal) x0 x2 x3 x4 x1 (ix2 p q) = firstArr X Mk Wa Wb Wc (ix2 r q) := by
  subst h2 h3 h4
  rw [TileBody.first_apply]
  show tile x0 x2 x3 x4 p q * x1 (ix2 p (0 : Fin 1)) = tile X x2 x3 x4 r q * Mk (ix2 r (0 : Fin 1))
  rw [h1]
  unfold tile
  refine congrArg (· * Mk (ix2 r (0 : Fin 1))) (Finset.sum_congr rfl fun h _ => ?_)
  have e : ∀ w : S1024x2816.Idx → Elt Ideal .bf16,
      (∑ k : Fin 1024, x0 (ix2 p k) * w (ix2 k h)) = ∑ k : Fin 1024, X (ix2 r k) * w (ix2 k h) :=
    fun w => Finset.sum_congr rfl fun k _ => by rw [h0 k]
  rw [e x2, e x3]

/-- The printed block index maps over the 128 tiles: tokens, weight column and output move with the tile along the
    rows; the three matrices stay at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What tile `t` writes back is rows 256·t … of `firstArr` of the arrays the call finds. -/
theorem first_flushed (c : Dev nD) (t : Fin cfg0.N) :
    (dat0 V c).flushed 5 t = ((cfg0.win 5).blk t).view.read (Elt Ideal)
      (firstArr (V c main_v0) (V c main_v10) (V c main_v12) (V c main_v14) (V c main_v16)) := by
  show (cfg0.win 5).cut (grid0.coords t) ((dat0 V c).after 5 t) = _
  rw [after0_5]
  unfold out0_5
  rw [View.canon_unit_zero hz]
  simp only [View.ld_unit_zero (S := S256x1024) hz, View.ld_unit_zero (S := S256x1) hz,
    View.ld_unit_zero (S := S1024x2816) hz, View.ld_unit_zero (S := S2816x1024) hz]
  obtain ⟨e00, e01, e10, e11, e20, e21, e30, e31, e40, e41, e50, e51⟩ := idx0 t
  have ht : t.val < 128 := lt_of_lt_of_eq t.isLt N_0
  funext j
  obtain ⟨p, q, rfl⟩ : ∃ (p : Fin 256) (q : Fin 1024), j = ix2 p q := ⟨j 0, j 1, eq_ix2 j⟩
  have hemb : ((cfg0.win 5).blk t).view.emb (ix2 p q) = ix2 (⟨t.val * 256 + p.val, by omega⟩ : Fin 32768) q :=
    funext fun a => Fin.ext (by
      match a with
      | ⟨0, _⟩ => show win0_5.index t (0 : Fin 2) * 256 + 1 * p.val = t.val * 256 + p.val; rw [e50]; omega
      | ⟨1, _⟩ => show win0_5.index t (1 : Fin 2) * 1024 + 1 * q.val = q.val; rw [e51]; omega)
  refine (first_block (V c main_v0) (V c main_v10) (V c main_v12) (V c main_v14) (V c main_v16)
    (iblk0 V c 0 t) (iblk0 V c 1 t) (iblk0 V c 2 t) (iblk0 V c 3 t) (iblk0 V c 4 t) p q
    (⟨t.val * 256 + p.val, by omega⟩ : Fin 32768) ?_ ?_ ?_ ?_ ?_).trans
      (congrArg (firstArr (V c main_v0) (V c main_v10) (V c main_v12) (V c main_v14) (V c main_v16)) hemb.symm)
  · intro k
    show V c main_v0 (((cfg0.win 0).blk t).view.emb (ix2 p k)) = _
    refine congrArg (V c main_v0) (funext fun a => Fin.ext ?_)
    match a with
    | ⟨0, _⟩ => show win0_0.index t (0 : Fin 2) * 256 + 1 * p.val = t.val * 256 + p.val; rw [e00]; omega
    | ⟨1, _⟩ => show win0_0.index t (1 : Fin 2) * 1024 + 1 * k.val = k.val; rw [e01]; omega
  · show V c main_v10 (((cfg0.win 1).blk t).view.emb (ix2 p (0 : Fin 1))) = _
    refine congrArg (V c main_v10) (funext fun a => Fin.ext ?_)
    match a with
    | ⟨0, _⟩ => show win0_1.index t (0 : Fin 2) * 256 + 1 * p.val = t.val * 256 + p.val; rw [e10]; omega
    | ⟨1, _⟩ => show win0_1.index t (1 : Fin 2) * 1 + 1 * 0 = 0; rw [e11]
  · funext y
    show V c main_v12 (((cfg0.win 2).blk t).view.emb y) = V c main_v12 y
    refine congrArg (V c main_v12) (funext fun a => Fin.ext ?_)
    match a with
    | ⟨0, _⟩ => show win0_2.index t (0 : Fin 2) * 1024 + 1 * (y 0).val = (y 0).val; rw [e20]; omega
    | ⟨1, _⟩ => show win0_2.index t (1 : Fin 2) * 2816 + 1 * (y 1).val = (y 1).val; rw [e21]; omega
  · funext y
    show V c main_v14 (((cfg0.win 3).blk t).view.emb y) = V c main_v14 y
    refine congrArg (V c main_v14) (funext fun a => Fin.ext ?_)
    match a with
    | ⟨0, _⟩ => show win0_3.index t (0 : Fin 2) * 1024 + 1 * (y 0).val = (y 0).val; rw [e30]; omega
    | ⟨1, _⟩ => show win0_3.index t (1 : Fin 2) * 2816 + 1 * (y 1).val = (y 1).val; rw [e31]; omega
  · funext y
    show V c main_v16 (((cfg0.win 4).blk t).view.emb y) = V c main_v16 y
    refine congrArg (V c main_v16) (funext fun a => Fin.ext ?_)
    match a with
    | ⟨0, _⟩ => show win0_4.index t (0 : Fin 2) * 2816 + 1 * (y 0).val = (y 0).val; rw [e40]; omega
    | ⟨1, _⟩ => show win0_4.index t (1 : Fin 2) * 1024 + 1 * (y 1).val = (y 1).val; rw [e41]; omega

/-- An index of the output array is in tile `t`'s block iff each coordinate is in the block's range on its axis. -/
theorem first_mem_blk (t : Fin cfg0.N) (i : S32768x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v17).slice (win0_5.rect t)).set ↔ _
  rw [View.set_slice_whole, Rect.mem_set_unit]
  exact Iff.rfl

/-- Every row lies in some tile's block: row r in tile r / 256. -/
theorem first_cover (i : S32768x1024.Idx) :
    ∃ t : Fin cfg0.N, (cfg0.win 5).flush t = true ∧ i ∈ ((cfg0.win 5).blk t).view.set := by
  have hN : grid0.N = 128 := N_0
  have hi0 : (i 0).val < 32768 := (i 0).isLt
  have hi1 : (i 1).val < 1024 := (i 1).isLt
  obtain ⟨t, ht⟩ : ∃ t : Fin cfg0.N, t.val = (i 0).val / 256 :=
    ⟨⟨(i 0).val / 256, by show (i 0).val / 256 < grid0.N; rw [hN]; omega⟩, rfl⟩
  obtain ⟨-, -, -, -, -, -, -, -, -, -, e50, e51⟩ := idx0 t
  refine ⟨t, flush0_5 t, ?_⟩
  rw [first_mem_blk]
  intro a
  match a with
  | ⟨0, _⟩ =>
    show win0_5.index t (0 : Fin 2) * 256 ≤ (i 0).val ∧ (i 0).val < win0_5.index t (0 : Fin 2) * 256 + 256
    rw [e50, ht]; omega
  | ⟨1, _⟩ =>
    show win0_5.index t (1 : Fin 2) * 1024 ≤ (i 1).val ∧ (i 1).val < win0_5.index t (1 : Fin 2) * 1024 + 1024
    rw [e51]; omega

/-- After the first call its output array is `firstArr` of the arrays it found. -/
theorem first_array (c : Dev nD) : (dat0 V c).arrAt 5 cfg0.N
    = firstArr (V c main_v0) (V c main_v10) (V c main_v12) (V c main_v14) (V c main_v16) :=
  (dat0 V c).arrAt_eq_of_cover 5 _ (fun t _ => first_flushed V c t) first_cover

/-! ## The second call -/

/-- The second call's output as a function of the running result `Acc`, the tokens, the weight column and the
    expert's matrices. -/
def secondArr (Acc X : S32768x1024.Idx → Elt Ideal .f32) (Mk : S32768x1.Idx → Elt Ideal .f32)
    (Wa Wb : S1024x2816.Idx → Elt Ideal .bf16) (Wc : S2816x1024.Idx → Elt Ideal .bf16) : S32768x1024.Idx → Elt Ideal .f32 :=
  fun i => Acc i + tile X Wa Wb Wc (i 0) (i 1) * Mk (ix2 (i 0) (0 : Fin 1))

/-- A tile's stored block is the restriction of `secondArr`. -/
theorem second_block (Acc X : S32768x1024.Idx → Elt Ideal .f32) (Mk : S32768x1.Idx → Elt Ideal .f32)
    (Wa Wb : S1024x2816.Idx → Elt Ideal .bf16) (Wc : S2816x1024.Idx → Elt Ideal .bf16)
    (acc x0 : Vec Ideal S256x1024 .f32) (x1 : Vec Ideal S256x1 .f32) (x2 x3 : Vec Ideal S1024x2816 .bf16)
    (x4 : Vec Ideal S2816x1024 .bf16) (p : Fin 256) (q : Fin 1024) (r : Fin 32768)
    (ha : acc (ix2 p q) = Acc (ix2 r q))
    (h0 : ∀ k : Fin 1024, x0 (ix2 p k) = X (ix2 r k))
    (h1 : x1 (ix2 p (0 : Fin 1)) = Mk (ix2 r (0 : Fin 1)))
    (h2 : x2 = Wa) (h3 : x3 = Wb) (h4 : x4 = Wc) :
    k1_pay1 (F := Ideal) x0 x2 x3 x4 acc x1 (ix2 p q) = secondArr Acc X Mk Wa Wb Wc (ix2 r q) := by
  subst h2 h3 h4
  rw [TileBody.second_apply]
  show acc (ix2 p q) + tile x0 x2 x3 x4 p q * x1 (ix2 p (0 : Fin 1))
    = Acc (ix2 r q) + tile X x2 x3 x4 r q * Mk (ix2 r (0 : Fin 1))
  rw [ha, h1]
  unfold tile
  refine congrArg (fun s => Acc (ix2 r q) + s * Mk (ix2 r (0 : Fin 1))) (Finset.sum_congr rfl fun h _ => ?_)
  have e : ∀ w : S1024x2816.Idx → Elt Ideal .bf16,
      (∑ k : Fin 1024, x0 (ix2 p k) * w (ix2 k h)) = ∑ k : Fin 1024, X (ix2 r k) * w (ix2 k h) :=
    fun w => Finset.sum_congr rfl fun k _ => by rw [h0 k]
  rw [e x2, e x3]

/-- The printed block index maps of the second call over its 128 tiles. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What tile `t` of the second call writes back is rows 256·t … of `secondArr` of the arrays the call finds. -/
theorem second_flushed (c : Dev nD) (t : Fin cfg1.N) :
    (dat1 V c).flushed 6 t = ((cfg1.win 6).blk t).view.read (Elt Ideal)
      (secondArr (V c main_v17) (V c main_v0) (V c main_v20) (V c main_v22) (V c main_v24) (V c main_v26)) := by
  show (cfg1.win 6).cut (grid1.coords t) ((dat1 V c).after 6 t) = _
  rw [after1_6]
  unfold out1_6
  rw [View.canon_unit_zero hz]
  simp only [View.ld_unit_zero (S := S256x1024) hz, View.ld_unit_zero (S := S256x1) hz,
    View.ld_unit_zero (S := S1024x2816) hz, View.ld_unit_zero (S := S2816x1024) hz]
  obtain ⟨e00, e01, e10, e11, e20, e21, e30, e31, e40, e41, e50, e51, e60, e61⟩ := idx1 t
  have ht : t.val < 128 := lt_of_lt_of_eq t.isLt N_1
  funext j
  obtain ⟨p, q, rfl⟩ : ∃ (p : Fin 256) (q : Fin 1024), j = ix2 p q := ⟨j 0, j 1, eq_ix2 j⟩
  have hemb : ((cfg1.win 6).blk t).view.emb (ix2 p q) = ix2 (⟨t.val * 256 + p.val, by omega⟩ : Fin 32768) q :=
    funext fun a => Fin.ext (by
      match a with
      | ⟨0, _⟩ => show win1_6.index t (0 : Fin 2) * 256 + 1 * p.val = t.val * 256 + p.val; rw [e60]; omega
      | ⟨1, _⟩ => show win1_6.index t (1 : Fin 2) * 1024 + 1 * q.val = q.val; rw [e61]; omega)
  refine (second_block (V c main_v17) (V c main_v0) (V c main_v20) (V c main_v22) (V c main_v24) (V c main_v26)
    (iblk1 V c 0 t) (iblk1 V c 1 t) (iblk1 V c 2 t) (iblk1 V c 3 t) (iblk1 V c 4 t) (iblk1 V c 5 t) p q
    (⟨t.val * 256 + p.val, by omega⟩ : Fin 32768) ?_ ?_ ?_ ?_ ?_ ?_).trans
      (congrArg (secondArr (V c main_v17) (V c main_v0) (V c main_v20) (V c main_v22) (V c main_v24) (V c main_v26)) hemb.symm)
  · show V c main_v17 (((cfg1.win 0).blk t).view.emb (ix2 p q)) = _
    refine congrArg (V c main_v17) (funext fun a => Fin.ext ?_)
    match a with
    | ⟨0, _⟩ => show win1_0.index t (0 : Fin 2) * 256 + 1 * p.val = t.val * 256 + p.val; rw [e00]; omega
    | ⟨1, _⟩ => show win1_0.index t (1 : Fin 2) * 1024 + 1 * q.val = q.val; rw [e01]; omega
  · intro k
    show V c main_v0 (((cfg1.win 1).blk t).view.emb (ix2 p k)) = _
    refine congrArg (V c main_v0) (funext fun a => Fin.ext ?_)
    match a with
    | ⟨0, _⟩ => show win1_1.index t (0 : Fin 2) * 256 + 1 * p.val = t.val * 256 + p.val; rw [e10]; omega
    | ⟨1, _⟩ => show win1_1.index t (1 : Fin 2) * 1024 + 1 * k.val = k.val; rw [e11]; omega
  · show V c main_v20 (((cfg1.win 2).blk t).view.emb (ix2 p (0 : Fin 1))) = _
    refine congrArg (V c main_v20) (funext fun a => Fin.ext ?_)
    match a with
    | ⟨0, _⟩ => show win1_2.index t (0 : Fin 2) * 256 + 1 * p.val = t.val * 256 + p.val; rw [e20]; omega
    | ⟨1, _⟩ => show win1_2.index t (1 : Fin 2) * 1 + 1 * 0 = 0; rw [e21]
  · funext y
    show V c main_v22 (((cfg1.win 3).blk t).view.emb y) = V c main_v22 y
    refine congrArg (V c main_v22) (funext fun a => Fin.ext ?_)
    match a with
    | ⟨0, _⟩ => show win1_3.index t (0 : Fin 2) * 1024 + 1 * (y 0).val = (y 0).val; rw [e30]; omega
    | ⟨1, _⟩ => show win1_3.index t (1 : Fin 2) * 2816 + 1 * (y 1).val = (y 1).val; rw [e31]; omega
  · funext y
    show V c main_v24 (((cfg1.win 4).blk t).view.emb y) = V c main_v24 y
    refine congrArg (V c main_v24) (funext fun a => Fin.ext ?_)
    match a with
    | ⟨0, _⟩ => show win1_4.index t (0 : Fin 2) * 1024 + 1 * (y 0).val = (y 0).val; rw [e40]; omega
    | ⟨1, _⟩ => show win1_4.index t (1 : Fin 2) * 2816 + 1 * (y 1).val = (y 1).val; rw [e41]; omega
  · funext y
    show V c main_v26 (((cfg1.win 5).blk t).view.emb y) = V c main_v26 y
    refine congrArg (V c main_v26) (funext fun a => Fin.ext ?_)
    match a with
    | ⟨0, _⟩ => show win1_5.index t (0 : Fin 2) * 2816 + 1 * (y 0).val = (y 0).val; rw [e50]; omega
    | ⟨1, _⟩ => show win1_5.index t (1 : Fin 2) * 1024 + 1 * (y 1).val = (y 1).val; rw [e51]; omega

/-- An index of the second call's output array is in tile `t`'s block iff each coordinate is in the block's range. -/
theorem second_mem_blk (t : Fin cfg1.N) (i : S32768x1024.Idx) :
    i ∈ ((cfg1.win 6).blk t).view.set ↔ ∀ a : Fin 2, win1_6.index t a * S256x1024.size a ≤ (i a).val
      ∧ (i a).val < win1_6.index t a * S256x1024.size a + S256x1024.size a := by
  show i ∈ ((View.whole main_v27).slice (win1_6.rect t)).set ↔ _
  rw [View.set_slice_whole, Rect.mem_set_unit]
  exact Iff.rfl

/-- Every row lies in some tile's block of the second call. -/
theorem second_cover (i : S32768x1024.Idx) :
    ∃ t : Fin cfg1.N, (cfg1.win 6).flush t = true ∧ i ∈ ((cfg1.win 6).blk t).view.set := by
  have hN : grid1.N = 128 := N_1
  have hi0 : (i 0).val < 32768 := (i 0).isLt
  have hi1 : (i 1).val < 1024 := (i 1).isLt
  obtain ⟨t, ht⟩ : ∃ t : Fin cfg1.N, t.val = (i 0).val / 256 :=
    ⟨⟨(i 0).val / 256, by show (i 0).val / 256 < grid1.N; rw [hN]; omega⟩, rfl⟩
  obtain ⟨-, -, -, -, -, -, -, -, -, -, -, -, e60, e61⟩ := idx1 t
  refine ⟨t, flush1_6 t, ?_⟩
  rw [second_mem_blk]
  intro a
  match a with
  | ⟨0, _⟩ =>
    show win1_6.index t (0 : Fin 2) * 256 ≤ (i 0).val ∧ (i 0).val < win1_6.index t (0 : Fin 2) * 256 + 256
    rw [e60, ht]; omega
  | ⟨1, _⟩ =>
    show win1_6.index t (1 : Fin 2) * 1024 ≤ (i 1).val ∧ (i 1).val < win1_6.index t (1 : Fin 2) * 1024 + 1024
    rw [e61]; omega

/-- After the second call its output array is `secondArr` of the arrays it found. -/
theorem second_array (c : Dev nD) : (dat1 V c).arrAt 6 cfg1.N
    = secondArr (V c main_v17) (V c main_v0) (V c main_v20) (V c main_v22) (V c main_v24) (V c main_v26) :=
  (dat1 V c).arrAt_eq_of_cover 6 _ (fun t _ => second_flushed V c t) second_cover

end Routed.CallArrays

end
-- ==== Proof.HostSide.lean ====
/-
  The arrays the two calls find, read at an index as entries of the launch arrays.

  Before the first call the host flattens the tokens [8, 4096, 1024] to [32768, 1024] and the tags [8, 4096] to a
  column [32768, 1] (row r is token (r / 4096, r % 4096)); narrows each expert matrix's float format (the identity
  on the extended reals), swaps its last two axes, and takes expert 0's slab as a matrix; and turns "tag = 0" into
  a 0/1 column. Between the calls it does the same with expert 1's slabs and "tag = 1". After the second call it
  folds the [32768, 1024] result back to [8, 4096, 1024].
-/
import proofs.«132314_j35656818491417_1_alg».proof.Proof.Gen.KernelIdeal.Frame
import proofs.«132314_j35656818491417_1_alg».proof.Proof.LibRoutedExperts
import Idealize.ShloMosaic.Lib.StableHlo.Run
import Idealize.ShloMosaic.Lib.Pipeline.Value
import Idealize.ShloMosaic.PureOps.Ideal

set_option maxRecDepth 16384

noncomputable section

namespace Routed.HostSide

open Idealize.ShloMosaic Idealize.ShloMosaic.TcCoe Idealize.ShloMosaic.StableHlo Idealize.ShloMosaic.ValueIdx Idealize.SL.Sem
open Cert.KernelIdeal Cert.KernelIdeal.Gen Routed

/-! ## Layout chains over an abstract array -/

/-- Row `r = b · 4096 + s` of the flattened tokens is token (b, s). -/
theorem flat_tokens (x : S8x4096x1024.Idx → EReal) (b : Fin 8) (s : Fin 4096) (k : Fin 1024) (r : Fin 32768)
    (hr : r.val = b.val * 4096 + s.val) :
    shapeCast S32768x1024 x shapeCasts_S8x4096x1024_S32768x1024 (ix2 r k) = x (ix3 b s k) :=
  shapeCast_apply x shapeCasts_S8x4096x1024_S32768x1024 (ix2 r k) (ix3 b s k) (by
    rw [Shape.rowMajor_val_three, Shape.rowMajor_val_two]
    show (b.val * 4096 + s.val) * 1024 + k.val = r.val * 1024 + k.val
    rw [hr])

/-- Row `r = b · 4096 + s` of the tag column is the tag of token (b, s). -/
theorem flat_tags (ids : S8x4096.Idx → BitVec 32) (b : Fin 8) (s : Fin 4096) (r : Fin 32768)
    (hr : r.val = b.val * 4096 + s.val) :
    shapeCast S32768x1 ids shapeCasts_S8x4096_S32768x1 (ix2 r (0 : Fin 1)) = ids (ix2 b s) :=
  shapeCast_apply ids shapeCasts_S8x4096_S32768x1 (ix2 r (0 : Fin 1)) (ix2 b s) (by
    rw [Shape.rowMajor_val_two, Shape.rowMajor_val_two]
    show b.val * 4096 + s.val = r.val * 1 + 0
    rw [hr]; omega)

/-- The folded-back result at (b, s, d) is row `b · 4096 + s` of the flat one. -/
theorem fold_back (y : S32768x1024.Idx → EReal) (b : Fin 8) (s : Fin 4096) (d : Fin 1024) (r : Fin 32768)
    (hr : r.val = b.val * 4096 + s.val) :
    shapeCast S8x4096x1024 y shapeCasts_S32768x1024_S8x4096x1024 (ix3 b s d) = y (ix2 r d) :=
  shapeCast_apply y shapeCasts_S32768x1024_S8x4096x1024 (ix3 b s d) (ix2 r d) (by
    rw [Shape.rowMajor_val_three, Shape.rowMajor_val_two]
    show r.val * 1024 + d.val = (b.val * 4096 + s.val) * 1024 + d.val
    rw [hr])

/-- An input projection [2, 2816, 1024], narrowed, its last two axes swapped, slab `e` taken as a [1024, 2816] matrix:
    at (k, h) it is the projection at (e, h, k). -/
theorem in_slab (w : S2x2816x1024.Idx → EReal) (e : Fin 2) (hs : S2x1024x2816.Slices ![e.val, 0, 0] S1x1024x2816)
    (k : Fin 1024) (h : Fin 2816) :
    shapeCast S1024x2816 (extractStridedSlice S1x1024x2816 ![e.val, 0, 0]
        (transpose S2x1024x2816 [0, 2, 1] (truncf (F := Ideal) .bf16 w bitsLt_bf16_f32) transposes_S2x2816x1024_S2x1024x2816_0_2_1) hs)
      shapeCasts_S1x1024x2816_S1024x2816 (ix2 k h) = w (ix3 e h k) := by
  rw [shapeCast_apply _ shapeCasts_S1x1024x2816_S1024x2816 (ix2 k h) (ix3 (0 : Fin 1) k h) (by
    rw [Shape.rowMajor_val_three, Shape.rowMajor_val_two]
    show (0 * 1024 + k.val) * 2816 + h.val = k.val * 2816 + h.val
    omega)]
  rw [extractStridedSlice_apply ![e.val, 0, 0] _ hs (ix3 (0 : Fin 1) k h) (ix3 e k h) (fun a => by
    match a with
    | ⟨0, _⟩ => show e.val = e.val + 0; omega
    | ⟨1, _⟩ => show k.val = 0 + k.val; omega
    | ⟨2, _⟩ => show h.val = 0 + h.val; omega)]
  rw [transpose_apply [0, 2, 1] _ transposes_S2x2816x1024_S2x1024x2816_0_2_1 (ix3 e k h) (ix3 e h k) (fun a => by
    match a with
    | ⟨0, _⟩ => rfl
    | ⟨1, _⟩ => rfl
    | ⟨2, _⟩ => rfl)]
  rfl

/-- The output projection [2, 1024, 2816], narrowed, its last two axes swapped, slab `e` taken as a [2816, 1024] matrix:
    at (h, d) it is the projection at (e, d, h). -/
theorem out_slab (w : S2x1024x2816.Idx → EReal) (e : Fin 2) (hs : S2x2816x1024.Slices ![e.val, 0, 0] S1x2816x1024)
    (h : Fin 2816) (d : Fin 1024) :
    shapeCast S2816x1024 (extractStridedSlice S1x2816x1024 ![e.val, 0, 0]
        (transpose S2x2816x1024 [0, 2, 1] (truncf (F := Ideal) .bf16 w bitsLt_bf16_f32) transposes_S2x1024x2816_S2x2816x1024_0_2_1) hs)
      shapeCasts_S1x2816x1024_S2816x1024 (ix2 h d) = w (ix3 e d h) := by
  rw [shapeCast_apply _ shapeCasts_S1x2816x1024_S2816x1024 (ix2 h d) (ix3 (0 : Fin 1) h d) (by
    rw [Shape.rowMajor_val_three, Shape.rowMajor_val_two]
    show (0 * 2816 + h.val) * 1024 + d.val = h.val * 1024 + d.val
    omega)]
  rw [extractStridedSlice_apply ![e.val, 0, 0] _ hs (ix3 (0 : Fin 1) h d) (ix3 e h d) (fun a => by
    match a with
    | ⟨0, _⟩ => show e.val = e.val + 0; omega
    | ⟨1, _⟩ => show h.val = 0 + h.val; omega
    | ⟨2, _⟩ => show d.val = 0 + d.val; omega)]
  rw [transpose_apply [0, 2, 1] _ transposes_S2x1024x2816_S2x2816x1024_0_2_1 (ix3 e h d) (ix3 e d h) (fun a => by
    match a with
    | ⟨0, _⟩ => rfl
    | ⟨1, _⟩ => rfl
    | ⟨2, _⟩ => rfl)]
  rfl

/-- The 0/1 column of "tag = n": at row r its entry is the 0/1 value of the one-bit comparison of row r's tag with n. -/
theorem tag_column (col : S32768x1.Idx → BitVec 32) (n : BitVec 32) (r : Fin 32768) :
    uitofp (F := Ideal) .f32 (cmpi .eq col (broadcastInDim S32768x1 ![] bcast_S_S32768x1 (constantI S_ 32 n))) (ix2 r (0 : Fin 1))
      = bit01 (IntOp.cmpi .eq (col (ix2 r (0 : Fin 1))) n) := by
  unfold bit01
  show (((IntOp.cmpi .eq (col (ix2 r (0 : Fin 1))) (broadcastInDim S32768x1 ![] bcast_S_S32768x1 (constantI S_ 32 n) (ix2 r (0 : Fin 1)))).toNat : ℝ) : EReal) = _
  rw [broadcastInDim_apply _ bcast_S_S32768x1 (constantI S_ 32 n) (ix2 r (0 : Fin 1)) ix0 (fun a => a.elim0)]
  rfl

end Routed.HostSide

end
-- ==== Proof.KernelValue.lean ====
/-
  The kernel program's result is the routed two-expert result of its arguments.

  Unfolding the run's fold from the end: the result is the second call's output folded back to [8, 4096, 1024]; the
  second call's output at row r is the first call's output at row r plus expert 1's tile output times the 0/1 value
  of "tag = 1"; the first call's output at row r is expert 0's tile output times the 0/1 value of "tag = 0". With row
  r = b · 4096 + s read as token (b, s), each tile output is the expert's output for that token, and a product with a
  0/1 value is a selection on the bit. The sum of the two selections is `routed`.
-/
import proofs.«132314_j35656818491417_1_alg».proof.Proof.CallArrays
import proofs.«132314_j35656818491417_1_alg».proof.Proof.HostSide

set_option maxRecDepth 16384

noncomputable section

namespace Routed.KernelValue

open Idealize.ShloMosaic Idealize.ShloMosaic.TcCoe Idealize.ShloMosaic.StableHlo Idealize.ShloMosaic.ValueIdx Idealize.SL.Sem
open Cert.KernelIdeal Cert.KernelIdeal.Gen Routed Routed.CallArrays Routed.HostSide

variable (m : (ℓ : Loc nD τ sig) → Buf (Elt Ideal) ℓ) (ρ : Dev nD → PrngReg) (c : Dev nD)

/-- The launch arrays of core `c`, at their literal types. -/
abbrev tokens : S8x4096x1024.Idx → EReal := m ((c : Thread nD τ).loc main_arg0)
abbrev tags : S8x4096.Idx → BitVec 32 := m ((c : Thread nD τ).loc main_arg1)
abbrev projA : S2x2816x1024.Idx → EReal := m ((c : Thread nD τ).loc main_arg2)
abbrev projC : S2x1024x2816.Idx → EReal := m ((c : Thread nD τ).loc main_arg3)
abbrev projB : S2x2816x1024.Idx → EReal := m ((c : Thread nD τ).loc main_arg4)

/-! ## What the first call finds -/

theorem find_tokens : (V1 m ρ c main_v0 : S32768x1024.Idx → EReal)
    = shapeCast S32768x1024 (tokens m c) shapeCasts_S8x4096x1024_S32768x1024 := by
  show StableHlo.after hostOps0 (W0 m ρ c) (Proc.devRef .tc main_v0) = _
  after_results
  rfl

theorem find_tagcol : (W1 m ρ c (Proc.devRef .tc main_v1) : S32768x1.Idx → BitVec 32)
    = shapeCast S32768x1 (tags m c) shapeCasts_S8x4096_S32768x1 := by
  show StableHlo.after hostOps0 (W0 m ρ c) (Proc.devRef .tc main_v1) = _
  after_results
  rfl

theorem find_mask0 : (V1 m ρ c main_v10 : S32768x1.Idx → EReal)
    = uitofp (F := Ideal) .f32 (cmpi .eq (shapeCast S32768x1 (tags m c) shapeCasts_S8x4096_S32768x1)
        (broadcastInDim S32768x1 ![] bcast_S_S32768x1 (constantI S_ 32 0#32))) := by
  show StableHlo.after hostOps0 (W0 m ρ c) (Proc.devRef .tc main_v10) = _
  after_results
  rfl

theorem find_A_T : (W1 m ρ c (Proc.devRef .tc main_v3) : S2x1024x2816.Idx → EReal)
    = transpose S2x1024x2816 [0, 2, 1] (truncf (F := Ideal) .bf16 (projA m c) bitsLt_bf16_f32) transposes_S2x2816x1024_S2x1024x2816_0_2_1 := by
  show StableHlo.after hostOps0 (W0 m ρ c) (Proc.devRef .tc main_v3) = _
  after_results

theorem find_B_T : (W1 m ρ c (Proc.devRef .tc main_v5) : S2x1024x2816.Idx → EReal)
    = transpose S2x1024x2816 [0, 2, 1] (truncf (F := Ideal) .bf16 (projB m c) bitsLt_bf16_f32) transposes_S2x2816x1024_S2x1024x2816_0_2_1 := by
  show StableHlo.after hostOps0 (W0 m ρ c) (Proc.devRef .tc main_v5) = _
  after_results

theorem find_C_T : (W1 m ρ c (Proc.devRef .tc main_v7) : S2x2816x1024.Idx → EReal)
    = transpose S2x2816x1024 [0, 2, 1] (truncf (F := Ideal) .bf16 (projC m c) bitsLt_bf16_f32) transposes_S2x1024x2816_S2x2816x1024_0_2_1 := by
  show StableHlo.after hostOps0 (W0 m ρ c) (Proc.devRef .tc main_v7) = _
  after_results

theorem find_A0 : (V1 m ρ c main_v12 : S1024x2816.Idx → EReal)
    = shapeCast S1024x2816 (extractStridedSlice S1x1024x2816 ![0, 0, 0]
        (transpose S2x1024x2816 [0, 2, 1] (truncf (F := Ideal) .bf16 (projA m c) bitsLt_bf16_f32) transposes_S2x2816x1024_S2x1024x2816_0_2_1)
        slices_S2x1024x2816_S1x1024x2816_0_0_0) shapeCasts_S1x1024x2816_S1024x2816 := by
  show StableHlo.after hostOps0 (W0 m ρ c) (Proc.devRef .tc main_v12) = _
  after_results
  rfl

theorem find_B0 : (V1 m ρ c main_v14 : S1024x2816.Idx → EReal)
    = shapeCast S1024x2816 (extractStridedSlice S1x1024x2816 ![0, 0, 0]
        (transpose S2x1024x2816 [0, 2, 1] (truncf (F := Ideal) .bf16 (projB m c) bitsLt_bf16_f32) transposes_S2x2816x1024_S2x1024x2816_0_2_1)
        slices_S2x1024x2816_S1x1024x2816_0_0_0) shapeCasts_S1x1024x2816_S1024x2816 := by
  show StableHlo.after hostOps0 (W0 m ρ c) (Proc.devRef .tc main_v14) = _
  after_results
  rfl

theorem find_C0 : (V1 m ρ c main_v16 : S2816x1024.Idx → EReal)
    = shapeCast S2816x1024 (extractStridedSlice S1x2816x1024 ![0, 0, 0]
        (transpose S2x2816x1024 [0, 2, 1] (truncf (F := Ideal) .bf16 (projC m c) bitsLt_bf16_f32) transposes_S2x1024x2816_S2x2816x1024_0_2_1)
        slices_S2x2816x1024_S1x2816x1024_0_0_0) shapeCasts_S1x2816x1024_S2816x1024 := by
  show StableHlo.after hostOps0 (W0 m ρ c) (Proc.devRef .tc main_v16) = _
  after_results
  rfl

/-! ## What the second call finds -/

theorem find_acc : (V3 m ρ c main_v17 : S32768x1024.Idx → EReal)
    = firstArr (V1 m ρ c main_v0) (V1 m ρ c main_v10) (V1 m ρ c main_v12) (V1 m ρ c main_v14) (V1 m ρ c main_v16) := by
  show StableHlo.after hostOps1 (W2 m ρ c) (Proc.devRef .tc main_v17) = _
  after_results
  exact (W2_arr m ρ c 5).trans (first_array (V1 m ρ) c)

/-- The token array is only read by the first call (its window never writes back), so the call leaves it as found. -/
theorem tokens_kept : (dat0 (V1 m ρ) c).arrAt 0 cfg0.N = V1 m ρ c main_v0 :=
  funext fun i => ((dat0 (V1 m ρ) c).arrAt_apply_of_forall_not_mem 0 cfg0.N i (fun t _ hf => by
    have hff : (false : Bool) = true := hf
    exact absurd hff (by decide))).trans (congrFun (A_eq0 (V1 m ρ) c 0) i)

theorem find_tokens' : (V3 m ρ c main_v0 : S32768x1024.Idx → EReal) = V1 m ρ c main_v0 := by
  show StableHlo.after hostOps1 (W2 m ρ c) (Proc.devRef .tc main_v0) = _
  after_results
  exact (W2_arr m ρ c 0).trans (tokens_kept m ρ c)

theorem find_mask1 : (V3 m ρ c main_v20 : S32768x1.Idx → EReal)
    = uitofp (F := Ideal) .f32 (cmpi .eq (shapeCast S32768x1 (tags m c) shapeCasts_S8x4096_S32768x1)
        (broadcastInDim S32768x1 ![] bcast_S_S32768x1 (constantI S_ 32 1#32))) := by
  show StableHlo.after hostOps1 (W2 m ρ c) (Proc.devRef .tc main_v20) = _
  after_results
  rw [W2_of_ne m ρ c main_v1 (by decide), find_tagcol]

theorem find_A1 : (V3 m ρ c main_v22 : S1024x2816.Idx → EReal)
    = shapeCast S1024x2816 (extractStridedSlice S1x1024x2816 ![1, 0, 0]
        (transpose S2x1024x2816 [0, 2, 1] (truncf (F := Ideal) .bf16 (projA m c) bitsLt_bf16_f32) transposes_S2x2816x1024_S2x1024x2816_0_2_1)
        slices_S2x1024x2816_S1x1024x2816_1_0_0) shapeCasts_S1x1024x2816_S1024x2816 := by
  show StableHlo.after hostOps1 (W2 m ρ c) (Proc.devRef .tc main_v22) = _
  after_results
  rw [W2_of_ne m ρ c main_v3 (by decide), find_A_T]
  rfl

theorem find_B1 : (V3 m ρ c main_v24 : S1024x2816.Idx → EReal)
    = shapeCast S1024x2816 (extractStridedSlice S1x1024x2816 ![1, 0, 0]
        (transpose S2x1024x2816 [0, 2, 1] (truncf (F := Ideal) .bf16 (projB m c) bitsLt_bf16_f32) transposes_S2x2816x1024_S2x1024x2816_0_2_1)
        slices_S2x1024x2816_S1x1024x2816_1_0_0) shapeCasts_S1x1024x2816_S1024x2816 := by
  show StableHlo.after hostOps1 (W2 m ρ c) (Proc.devRef .tc main_v24) = _
  after_results
  rw [W2_of_ne m ρ c main_v5 (by decide), find_B_T]
  rfl

theorem find_C1 : (V3 m ρ c main_v26 : S2816x1024.Idx → EReal)
    = shapeCast S2816x1024 (extractStridedSlice S1x2816x1024 ![1, 0, 0]
        (transpose S2x2816x1024 [0, 2, 1] (truncf (F := Ideal) .bf16 (projC m c) bitsLt_bf16_f32) transposes_S2x1024x2816_S2x2816x1024_0_2_1)
        slices_S2x2816x1024_S1x2816x1024_1_0_0) shapeCasts_S1x2816x1024_S2816x1024 := by
  show StableHlo.after hostOps1 (W2 m ρ c) (Proc.devRef .tc main_v26) = _
  after_results
  rw [W2_of_ne m ρ c main_v7 (by decide), find_C_T]
  rfl

/-! ## The result buffer -/

theorem find_result : (W5 m ρ c (Proc.devRef .tc main_v28) : S8x4096x1024.Idx → EReal)
    = shapeCast S8x4096x1024
        (secondArr (V3 m ρ c main_v17) (V3 m ρ c main_v0) (V3 m ρ c main_v20) (V3 m ρ c main_v22) (V3 m ρ c main_v24) (V3 m ρ c main_v26))
        shapeCasts_S32768x1024_S8x4096x1024 := by
  show StableHlo.after hostOps2 (W4 m ρ c) (Proc.devRef .tc main_v28) = _
  after_results
  have e : W4 m ρ c (Proc.devRef .tc main_v27)
      = secondArr (V3 m ρ c main_v17) (V3 m ρ c main_v0) (V3 m ρ c main_v20) (V3 m ρ c main_v22) (V3 m ρ c main_v24) (V3 m ρ c main_v26) :=
    (W4_arr m ρ c 6).trans (second_array (V3 m ρ) c)
  rw [e]
  rfl

/-! ## Each call's term at a token -/

/-- Expert 0's term: the first call's output at row b · 4096 + s. -/
theorem term0 (b : Fin 8) (s : Fin 4096) (d : Fin 1024) (r : Fin 32768) (hr : r.val = b.val * 4096 + s.val) :
    (V3 m ρ c main_v17 : S32768x1024.Idx → EReal) (ix2 r d)
      = Scalar.select (IntOp.cmpi .eq (tags m c (ix2 b s)) 0#32)
          (expert (tokens m c) (projA m c) (projB m c) (projC m c) (0 : Fin 2) b s d) 0 := by
  rw [find_acc]
  show tile (V1 m ρ c main_v0) (V1 m ρ c main_v12) (V1 m ρ c main_v14) (V1 m ρ c main_v16) r d
      * (V1 m ρ c main_v10 : S32768x1.Idx → EReal) (ix2 r (0 : Fin 1)) = _
  rw [find_mask0, tag_column, flat_tags (tags m c) b s r hr, ← mul_bit01]
  refine congrArg (· * bit01 _) ?_
  refine tile_eq_expert _ _ _ _ (tokens m c) (projA m c) (projB m c) (projC m c) (0 : Fin 2) r b s d ?_ ?_ ?_ ?_
  · intro k; rw [find_tokens]; exact flat_tokens (tokens m c) b s k r hr
  · intro k h; rw [find_A0]; exact in_slab (projA m c) 0 slices_S2x1024x2816_S1x1024x2816_0_0_0 k h
  · intro k h; rw [find_B0]; exact in_slab (projB m c) 0 slices_S2x1024x2816_S1x1024x2816_0_0_0 k h
  · intro h; rw [find_C0]; exact out_slab (projC m c) 0 slices_S2x2816x1024_S1x2816x1024_0_0_0 h d

/-- Expert 1's term: what the second call adds at row b · 4096 + s. -/
theorem term1 (b : Fin 8) (s : Fin 4096) (d : Fin 1024) (r : Fin 32768) (hr : r.val = b.val * 4096 + s.val) :
    tile (V3 m ρ c main_v0) (V3 m ρ c main_v22) (V3 m ρ c main_v24) (V3 m ρ c main_v26) r d
        * (V3 m ρ c main_v20 : S32768x1.Idx → EReal) (ix2 r (0 : Fin 1))
      = Scalar.select (IntOp.cmpi .eq (tags m c (ix2 b s)) 1#32)
          (expert (tokens m c) (projA m c) (projB m c) (projC m c) (1 : Fin 2) b s d) 0 := by
  rw [find_mask1, tag_column, flat_tags (tags m c) b s r hr, ← mul_bit01]
  refine congrArg (· * bit01 _) ?_
  refine tile_eq_expert _ _ _ _ (tokens m c) (projA m c) (projB m c) (projC m c) (1 : Fin 2) r b s d ?_ ?_ ?_ ?_
  · intro k; rw [find_tokens', find_tokens]; exact flat_tokens (tokens m c) b s k r hr
  · intro k h; rw [find_A1]; exact in_slab (projA m c) 1 slices_S2x1024x2816_S1x1024x2816_1_0_0 k h
  · intro k h; rw [find_B1]; exact in_slab (projB m c) 1 slices_S2x1024x2816_S1x1024x2816_1_0_0 k h
  · intro h; rw [find_C1]; exact out_slab (projC m c) 1 slices_S2x2816x1024_S1x2816x1024_1_0_0 h d

/-! ## The result -/

/-- The second call's array at (r, d), spelt out. -/
theorem secondArr_apply (Acc X : S32768x1024.Idx → Elt Ideal .f32) (Mk : S32768x1.Idx → Elt Ideal .f32)
    (Wa Wb : S1024x2816.Idx → Elt Ideal .bf16) (Wc : S2816x1024.Idx → Elt Ideal .bf16) (r : Fin 32768) (d : Fin 1024) :
    secondArr Acc X Mk Wa Wb Wc (ix2 r d) = Acc (ix2 r d) + tile X Wa Wb Wc r d * Mk (ix2 r (0 : Fin 1)) := rfl

/-- The result buffer after the run is `routed` of the launch arrays. -/
theorem result_is_routed : (W5 m ρ c (Proc.devRef .tc main_v28) : S8x4096x1024.Idx → EReal)
    = routed (tokens m c) (tags m c) (projA m c) (projB m c) (projC m c) := by
  funext i
  obtain ⟨b, s, d, rfl⟩ : ∃ (b : Fin 8) (s : Fin 4096) (d : Fin 1024), i = ix3 b s d := ⟨i 0, i 1, i 2, eq_ix3 i⟩
  have hb : b.val < 8 := b.isLt
  have hs : s.val < 4096 := s.isLt
  obtain ⟨r, hr⟩ : ∃ r : Fin 32768, r.val = b.val * 4096 + s.val := ⟨⟨b.val * 4096 + s.val, by omega⟩, rfl⟩
  rw [find_result, fold_back _ b s d r hr]
  refine (secondArr_apply _ _ _ _ _ _ r d).trans ?_
  refine (congrArg₂ (fun u v : EReal => u + v) (term0 m ρ c b s d r hr) (term1 m ρ c b s d r hr)).trans ?_
  rfl

end Routed.KernelValue

end
-- ==== Proof.RefValue.lean ====
/-
  The reference, read index by index, is the routed two-expert result.

  For each expert e in {0, 1} the reference takes the expert's slabs of the three weight arrays, contracts the tokens
  with the two input projections over the 1024 input features, gates the first by z · (1 / (1 + e^(-z))) and multiplies by
  the second, contracts with the output projection over the 2816 hidden features, keeps the result where the token's
  tag equals e (selecting zero elsewhere), and adds it to a running sum that starts at zero. Index by index that is
  `routed`: the quotient form of the gating factor is the logistic form by definition, and 0 + a = a.
-/
import proofs.«132314_j35656818491417_1_alg».proof.Proof.Gen.ReferenceIdeal.Read
import proofs.«132314_j35656818491417_1_alg».proof.Proof.LibRoutedExperts

set_option maxRecDepth 16384

noncomputable section

namespace Routed.RefValue

open Cert.ReferenceIdeal Cert.ReferenceIdeal.Gen Cert.ReferenceIdeal.Read Idealize.ShloMosaic Idealize.ShloMosaic.ValueIdx Routed

/-! ## Slabs of the weight arrays -/

/-- Slab `e` of a [2, 2816, 1024] array taken as a [2816, 1024] matrix: at (h, k) it is the array at (e, h, k). -/
theorem in_slab (w : S2x2816x1024.Idx → EReal) (e : Fin 2) (hs : S2x2816x1024.Slices ![e.val, 0, 0] S1x2816x1024)
    (h : Fin 2816) (k : Fin 1024) :
    shapeCast S2816x1024 (extractStridedSlice S1x2816x1024 ![e.val, 0, 0] w hs) shapeCasts_S1x2816x1024_S2816x1024 (ix2 h k)
      = w (ix3 e h k) := by
  rw [shapeCast_apply _ shapeCasts_S1x2816x1024_S2816x1024 (ix2 h k) (ix3 (0 : Fin 1) h k) (by
    rw [Shape.rowMajor_val_three, Shape.rowMajor_val_two]
    show (0 * 2816 + h.val) * 1024 + k.val = h.val * 1024 + k.val
    omega)]
  exact extractStridedSlice_apply ![e.val, 0, 0] w hs (ix3 (0 : Fin 1) h k) (ix3 e h k) (fun a => by
    match a with
    | ⟨0, _⟩ => show e.val = e.val + 0; omega
    | ⟨1, _⟩ => show h.val = 0 + h.val; omega
    | ⟨2, _⟩ => show k.val = 0 + k.val; omega)

/-- Slab `e` of a [2, 1024, 2816] array taken as a [1024, 2816] matrix: at (d, h) it is the array at (e, d, h). -/
theorem out_slab (w : S2x1024x2816.Idx → EReal) (e : Fin 2) (hs : S2x1024x2816.Slices ![e.val, 0, 0] S1x1024x2816)
    (d : Fin 1024) (h : Fin 2816) :
    shapeCast S1024x2816 (extractStridedSlice S1x1024x2816 ![e.val, 0, 0] w hs) shapeCasts_S1x1024x2816_S1024x2816 (ix2 d h)
      = w (ix3 e d h) := by
  rw [shapeCast_apply _ shapeCasts_S1x1024x2816_S1024x2816 (ix2 d h) (ix3 (0 : Fin 1) d h) (by
    rw [Shape.rowMajor_val_three, Shape.rowMajor_val_two]
    show (0 * 1024 + d.val) * 2816 + h.val = d.val * 2816 + h.val
    omega)]
  exact extractStridedSlice_apply ![e.val, 0, 0] w hs (ix3 (0 : Fin 1) d h) (ix3 e d h) (fun a => by
    match a with
    | ⟨0, _⟩ => show e.val = e.val + 0; omega
    | ⟨1, _⟩ => show d.val = 0 + d.val; omega
    | ⟨2, _⟩ => show h.val = 0 + h.val; omega)

variable (x0 : S8x4096x1024.Idx → EReal) (x1 : S8x4096.Idx → BitVec 32)
  (x2 : S2x2816x1024.Idx → EReal) (x3 : S2x1024x2816.Idx → EReal) (x4 : S2x2816x1024.Idx → EReal)

theorem w1_0 (h : Fin 2816) (k : Fin 1024) : val_main_v5 (F := Ideal) x2 (ix2 h k) = x2 (ix3 (0 : Fin 2) h k) :=
  in_slab x2 0 slices_S2x2816x1024_S1x2816x1024_0_0_0 h k
theorem w3_0 (h : Fin 2816) (k : Fin 1024) : val_main_v8 (F := Ideal) x4 (ix2 h k) = x4 (ix3 (0 : Fin 2) h k) :=
  in_slab x4 0 slices_S2x2816x1024_S1x2816x1024_0_0_0 h k
theorem w2_0 (d : Fin 1024) (h : Fin 2816) : val_main_v13 (F := Ideal) x3 (ix2 d h) = x3 (ix3 (0 : Fin 2) d h) :=
  out_slab x3 0 slices_S2x1024x2816_S1x1024x2816_0_0_0 d h
theorem w1_1 (h : Fin 2816) (k : Fin 1024) : val_main_v21 (F := Ideal) x2 (ix2 h k) = x2 (ix3 (1 : Fin 2) h k) :=
  in_slab x2 1 slices_S2x2816x1024_S1x2816x1024_1_0_0 h k
theorem w3_1 (h : Fin 2816) (k : Fin 1024) : val_main_v24 (F := Ideal) x4 (ix2 h k) = x4 (ix3 (1 : Fin 2) h k) :=
  in_slab x4 1 slices_S2x2816x1024_S1x2816x1024_1_0_0 h k
theorem w2_1 (d : Fin 1024) (h : Fin 2816) : val_main_v29 (F := Ideal) x3 (ix2 d h) = x3 (ix3 (1 : Fin 2) d h) :=
  out_slab x3 1 slices_S2x1024x2816_S1x1024x2816_1_0_0 d h

/-! ## The contractions -/

theorem proj1_0 (b : Fin 8) (s : Fin 4096) (h : Fin 2816) :
    val_main_v6 (F := Ideal) x0 x2 (ix3 b s h) = ∑ k : Fin 1024, x0 (ix3 b s k) * x2 (ix3 (0 : Fin 2) h k) := by
  rw [val_main_v6_apply]
  refine Finset.sum_congr rfl fun k _ => ?_
  have el : lidx_main_v6 (ix3 b s h) k = ix3 b s k :=
    funext fun a => Fin.ext (by match a with | ⟨0, _⟩ => rfl | ⟨1, _⟩ => rfl | ⟨2, _⟩ => rfl)
  have er : ridx_main_v6 (ix3 b s h) k = ix2 h k :=
    funext fun a => Fin.ext (by match a with | ⟨0, _⟩ => rfl | ⟨1, _⟩ => rfl)
  rw [el, er, w1_0]

theorem proj3_0 (b : Fin 8) (s : Fin 4096) (h : Fin 2816) :
    val_main_v9 (F := Ideal) x0 x4 (ix3 b s h) = ∑ k : Fin 1024, x0 (ix3 b s k) * x4 (ix3 (0 : Fin 2) h k) := by
  rw [val_main_v9_apply]
  refine Finset.sum_congr rfl fun k _ => ?_
  have el : lidx_main_v9 (ix3 b s h) k = ix3 b s k :=
    funext fun a => Fin.ext (by match a with | ⟨0, _⟩ => rfl | ⟨1, _⟩ => rfl | ⟨2, _⟩ => rfl)
  have er : ridx_main_v9 (ix3 b s h) k = ix2 h k :=
    funext fun a => Fin.ext (by match a with | ⟨0, _⟩ => rfl | ⟨1, _⟩ => rfl)
  rw [el, er, w3_0]

theorem proj1_1 (b : Fin 8) (s : Fin 4096) (h : Fin 2816) :
    val_main_v22 (F := Ideal) x0 x2 (ix3 b s h) = ∑ k : Fin 1024, x0 (ix3 b s k) * x2 (ix3 (1 : Fin 2) h k) := by
  rw [val_main_v22_apply]
  refine Finset.sum_congr rfl fun k _ => ?_
  have el : lidx_main_v22 (ix3 b s h) k = ix3 b s k :=
    funext fun a => Fin.ext (by match a with | ⟨0, _⟩ => rfl | ⟨1, _⟩ => rfl | ⟨2, _⟩ => rfl)
  have er : ridx_main_v22 (ix3 b s h) k = ix2 h k :=
    funext fun a => Fin.ext (by match a with | ⟨0, _⟩ => rfl | ⟨1, _⟩ => rfl)
  rw [el, er, w1_1]

theorem proj3_1 (b : Fin 8) (s : Fin 4096) (h : Fin 2816) :
    val_main_v25 (F := Ideal) x0 x4 (ix3 b s h) = ∑ k : Fin 1024, x0 (ix3 b s k) * x4 (ix3 (1 : Fin 2) h k) := by
  rw [val_main_v25_apply]
  refine Finset.sum_congr rfl fun k _ => ?_
  have el : lidx_main_v25 (ix3 b s h) k = ix3 b s k :=
    funext fun a => Fin.ext (by match a with | ⟨0, _⟩ => rfl | ⟨1, _⟩ => rfl | ⟨2, _⟩ => rfl)
  have er : ridx_main_v25 (ix3 b s h) k = ix2 h k :=
    funext fun a => Fin.ext (by match a with | ⟨0, _⟩ => rfl | ⟨1, _⟩ => rfl)
  rw [el, er, w3_1]

/-! ## The gated unit: the quotient spelling is the logistic one -/

theorem gate_0 (i : S8x4096x2816.Idx) :
    val_main_v11 (F := Ideal) x0 x2 x4 i
      = gated (val_main_v6 (F := Ideal) x0 x2 i) (val_main_v9 (F := Ideal) x0 x4 i) := by
  rw [val_main_v11_apply, val_main_v10_apply, val_main_call0_v5_apply, val_main_call0_v4_apply, val_main_call0_cst_0_apply,
    val_main_call0_v3_apply, val_main_call0_v2_apply, val_main_call0_cst_apply, val_main_call0_v1_apply, val_main_call0_v0_apply]
  show val_main_v6 (F := Ideal) x0 x2 i
      * Ideal.div (Ideal.ofBits .f32 0x3F800000#32) (Ideal.ofBits .f32 0x3F800000#32 + Ideal.exp (-(val_main_v6 (F := Ideal) x0 x2 i)))
      * val_main_v9 (F := Ideal) x0 x4 i = _
  rw [ofBits_one]
  rfl

theorem gate_1 (i : S8x4096x2816.Idx) :
    val_main_v27 (F := Ideal) x0 x2 x4 i
      = gated (val_main_v22 (F := Ideal) x0 x2 i) (val_main_v25 (F := Ideal) x0 x4 i) := by
  rw [val_main_v27_apply, val_main_v26_apply, val_main_call2_v5_apply, val_main_call2_v4_apply, val_main_call2_cst_0_apply,
    val_main_call2_v3_apply, val_main_call2_v2_apply, val_main_call2_cst_apply, val_main_call2_v1_apply, val_main_call2_v0_apply]
  show val_main_v22 (F := Ideal) x0 x2 i
      * Ideal.div (Ideal.ofBits .f32 0x3F800000#32) (Ideal.ofBits .f32 0x3F800000#32 + Ideal.exp (-(val_main_v22 (F := Ideal) x0 x2 i)))
      * val_main_v25 (F := Ideal) x0 x4 i = _
  rw [ofBits_one]
  rfl

/-! ## Each expert's output -/

theorem expert_0 (b : Fin 8) (s : Fin 4096) (d : Fin 1024) :
    val_main_v14 (F := Ideal) x0 x2 x3 x4 (ix3 b s d) = expert x0 x2 x4 x3 (0 : Fin 2) b s d := by
  rw [val_main_v14_apply]
  unfold expert
  refine Finset.sum_congr rfl fun h _ => ?_
  have el : lidx_main_v14 (ix3 b s d) h = ix3 b s h :=
    funext fun a => Fin.ext (by match a with | ⟨0, _⟩ => rfl | ⟨1, _⟩ => rfl | ⟨2, _⟩ => rfl)
  have er : ridx_main_v14 (ix3 b s d) h = ix2 d h :=
    funext fun a => Fin.ext (by match a with | ⟨0, _⟩ => rfl | ⟨1, _⟩ => rfl)
  rw [el, er, w2_0, gate_0, proj1_0, proj3_0]

theorem expert_1 (b : Fin 8) (s : Fin 4096) (d : Fin 1024) :
    val_main_v30 (F := Ideal) x0 x2 x3 x4 (ix3 b s d) = expert x0 x2 x4 x3 (1 : Fin 2) b s d := by
  rw [val_main_v30_apply]
  unfold expert
  refine Finset.sum_congr rfl fun h _ => ?_
  have el : lidx_main_v30 (ix3 b s d) h = ix3 b s h :=
    funext fun a => Fin.ext (by match a with | ⟨0, _⟩ => rfl | ⟨1, _⟩ => rfl | ⟨2, _⟩ => rfl)
  have er : ridx_main_v30 (ix3 b s d) h = ix2 d h :=
    funext fun a => Fin.ext (by match a with | ⟨0, _⟩ => rfl | ⟨1, _⟩ => rfl)
  rw [el, er, w2_1, gate_1, proj1_1, proj3_1]

/-! ## The tag tests and the fallback -/

theorem tag_0 (b : Fin 8) (s : Fin 4096) (d : Fin 1024) :
    val_main_call1_v1 (F := Ideal) x1 (ix3 b s d) = IntOp.cmpi .eq (x1 (ix2 b s)) 0#32 := by
  rw [val_main_call1_v1_apply, val_main_v3_apply, val_main_v2_apply, val_main_v1_apply, val_main_c_apply]
  have e : idx_main_v3 (idx_main_call1_v1 (ix3 b s d)) = ix2 b s :=
    funext fun a => Fin.ext (by match a with | ⟨0, _⟩ => rfl | ⟨1, _⟩ => rfl)
  rw [e]

theorem tag_1 (b : Fin 8) (s : Fin 4096) (d : Fin 1024) :
    val_main_call3_v1 (F := Ideal) x1 (ix3 b s d) = IntOp.cmpi .eq (x1 (ix2 b s)) 1#32 := by
  rw [val_main_call3_v1_apply, val_main_v19_apply, val_main_v18_apply, val_main_v17_apply, val_main_c_1_apply]
  have e : idx_main_v19 (idx_main_call3_v1 (ix3 b s d)) = ix2 b s :=
    funext fun a => Fin.ext (by match a with | ⟨0, _⟩ => rfl | ⟨1, _⟩ => rfl)
  rw [e]

theorem zero_0 (i : S8x4096x1024.Idx) : val_main_call1_v2 (F := Ideal) i = 0 := by
  rw [val_main_call1_v2_apply, val_main_call1_v0_apply, val_main_cst_0_apply]
  exact Ideal.ofBits_zero_f32

theorem zero_1 (i : S8x4096x1024.Idx) : val_main_call3_v2 (F := Ideal) i = 0 := by
  rw [val_main_call3_v2_apply, val_main_call3_v0_apply, val_main_cst_2_apply]
  exact Ideal.ofBits_zero_f32

theorem zero_start (i : S8x4096x1024.Idx) : val_main_v0 (F := Ideal) i = 0 := by
  rw [val_main_v0_apply, val_main_cst_apply]
  exact Ideal.ofBits_zero_f32

/-! ## The whole reference -/

/-- The reference's result, as the generated stages compose it, is `routed` of its five arguments. -/
theorem reference_is_routed : val_main_v32 (F := Ideal) x0 x1 x2 x3 x4 = routed x0 x1 x2 x4 x3 := by
  funext i
  obtain ⟨b, s, d, rfl⟩ : ∃ (b : Fin 8) (s : Fin 4096) (d : Fin 1024), i = ix3 b s d := ⟨i 0, i 1, i 2, eq_ix3 i⟩
  rw [val_main_v32_apply, val_main_v16_apply, val_main_v15_apply, val_main_v31_apply, zero_start, zero_0, zero_1,
    tag_0, tag_1, expert_0, expert_1]
  show (0 : EReal) + Scalar.select _ _ 0 + Scalar.select _ _ 0 = _
  rw [zero_add]
  rfl

end Routed.RefValue

end
-- ==== Proof.lean ====
/-
  A token-routed two-expert gated feed-forward layer: the kernel program against its array-level reference.

  Inputs: tokens x [8, 4096, 1024], one integer tag per token [8, 4096], and for each of two experts the input
  projections W1, W3 [2816, 1024] and the output projection W2 [1024, 2816]. For a token with tag e in {0, 1} the
  result is  ∑ h, (z_h · logistic z_h · u_h) · W2[e](d, h)  with  z_h = ∑ k x_k · W1[e](h, k),  u_h = ∑ k x_k · W3[e](h, k);
  for any other tag it is 0.

  The kernel program computes it in two calls over 128 tiles of 256 tokens, one call per expert: each call computes
  the expert's output for every token of the tile and multiplies it by the 0/1 value of "tag = e"; the second call
  adds its product to the first call's output. The reference computes each expert's output for all tokens, selects
  it where "tag = e" and zero elsewhere, and adds the two selections to a zero array.

  On the extended reals the two agree for every input, finite or not: format changes are the identity; a matrix
  product accumulated into zero, tile by tile, is the same sum over the contracted axis as the whole-array
  contraction, because a token's output depends on that token's row only; logistic z is by definition
  1 / (1 + e^(-z)), the reference's spelling; a product with the 0/1 value of a bit is a selection on that bit since
  x · 0 = 0 and x · 1 = x without exception; and 0 + a = a. So the precondition is not used by the value claim.

  The modules: LibRoutedExperts (the specification and the laws above), TileBody (one tile's arithmetic at an entry), CallArrays
  (each call's output array as one function of the arrays it finds), HostSide (the reshapes, transposes, slabs and
  tag tests read at an index), KernelRun (the program's run with its result named), KernelValue (that result is the
  specification), RefValue (so is the reference's).
-/
import proofs.«132314_j35656818491417_1_alg».proof.Defs
import proofs.«132314_j35656818491417_1_alg».proof.Proof.KernelRun
import proofs.«132314_j35656818491417_1_alg».proof.Proof.KernelValue
import proofs.«132314_j35656818491417_1_alg».proof.Proof.RefValue
import proofs.«132314_j35656818491417_1_alg».proof.Proof.Gen.Kernel
import proofs.«132314_j35656818491417_1_alg».proof.Proof.Gen.Kernel.Frame
import proofs.«132314_j35656818491417_1_alg».proof.Proof.Gen.KernelIdeal
import proofs.«132314_j35656818491417_1_alg».proof.Proof.Gen.KernelIdeal.Frame
import proofs.«132314_j35656818491417_1_alg».proof.Proof.Gen.ReferenceIdeal
import proofs.«132314_j35656818491417_1_alg».proof.Proof.Gen.ReferenceIdeal.Run
import proofs.«132314_j35656818491417_1_alg».proof.Proof.Gen.ReferenceIdeal.Read
import proofs.«132314_j35656818491417_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs to completion without a fault and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation, so there is nothing to preserve. -/
theorem preserves : Cert.preserves_Kernel_KernelIdeal := trivial

/-- From memories agreeing on the five arguments both programs run to completion, and both results are the routed
    two-expert result of the kernel program's arguments. -/
theorem algebraic : Cert.algebraic_KernelIdeal_ReferenceIdeal := by
  intro m ρ m' ρ' _ hagree
  refine ⟨fun c => Routed.routed (Routed.KernelValue.tokens m c) (Routed.KernelValue.tags m c)
      (Routed.KernelValue.projA m c) (Routed.KernelValue.projB m c) (Routed.KernelValue.projC m c), ?_, ?_⟩
  · exact (θ_run Cert.KernelIdeal.defs _ _).mono
      (fun r h c => ⟨(h c).1.trans (Routed.KernelValue.result_is_routed m ρ c), (h c).2⟩)
      (Routed.KernelRun.run_named (F := Ideal) m ρ)
  · refine (θ_run Cert.ReferenceIdeal.defs _ _).mono (fun r h c => ⟨(h c).1.trans ?_, (h c).2⟩)
      (Cert.ReferenceIdeal.Value.run (F := Ideal) m' ρ')
    have h0 := (hagree c).1
    have h1 := (hagree c).2.1
    have h2 := (hagree c).2.2.1
    have h3 := (hagree c).2.2.2.1
    have h4 := (hagree c).2.2.2.2
    rw [Cert.ReferenceIdeal.Read.val_main_v32_eq, Routed.RefValue.reference_is_routed, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
